-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x64 : Shape := ⟨2, ![131072, 64]⟩
abbrev S513x1 : Shape := ⟨2, ![513, 1]⟩
abbrev S512x64 : Shape := ⟨2, ![512, 64]⟩
abbrev S512x1 : Shape := ⟨2, ![512, 1]⟩
abbrev S_ : Shape := ⟨0, ![]⟩

class Facts : Prop where
  bcast_S_S131072x64 : S_.BroadcastsInDim S131072x64 (![] : Fin 0 → Fin S131072x64.rank)
  reducesTo_S131072x64_S_d0_1 : S131072x64.ReducesTo [0, 1] S_
  h_S_ : 0 < S_.numel
  bcast_S_S513x1 : S_.BroadcastsInDim S513x1 (![] : Fin 0 → Fin S513x1.rank)
  reducesTo_S513x1_S_d0_1 : S513x1.ReducesTo [0, 1] S_
  bcast_S_S512x64 : S_.BroadcastsInDim S512x64 (![] : Fin 0 → Fin S512x64.rank)
  reducesTo_S512x64_S_d0_1 : S512x64.ReducesTo [0, 1] S_
  bcast_S_S512x1 : S_.BroadcastsInDim S512x1 (![] : Fin 0 → Fin S512x1.rank)
  reducesTo_S512x1_S_d0_1 : S512x1.ReducesTo [0, 1] S_

variable [Facts]

def fn_part1 {F : FTy → Type} [FloatOps F] (main_arg3 : FVec F S512x1 .f32) (main_v13 : IVec S_ 1) (main_v16 : IVec S512x1 1) : IVec S_ 1 :=
  let main_c_5 : IVec S_ 1 := constantI S_ 1 1#1
  let main_v17 : IVec S_ 1 := (fun x v => Host.reduce IntOp.andi x v reducesTo_S512x1_S_d0_1 h_S_) main_v16 main_c_5
  let main_v18 : IVec S_ 1 := andi main_v13 main_v17
  let main_cst_6 : FVec F S_ .f32 := constant S_ .f32 0x00000000#32
  let main_v19 : FVec F S512x1 .f32 := broadcastInDim S512x1 ![] bcast_S_S512x1 main_cst_6
  let main_v20 : IVec S512x1 1 := cmpf .une main_arg3 main_v19
  let main_c_7 : IVec S_ 1 := constantI S_ 1 1#1
  let main_v21 : IVec S_ 1 := (fun x v => Host.reduce IntOp.andi x v reducesTo_S512x1_S_d0_1 h_S_) main_v20 main_c_7
  let main_v22 : IVec S_ 1 := andi main_v18 main_v21
  main_v22

def fn {F : FTy → Type} [FloatOps F] (main_arg0 : FVec F S131072x64 .f32) (main_arg1 : FVec F S513x1 .f32) (main_arg2 : FVec F S512x64 .f32) (main_arg3 : FVec F S512x1 .f32) : IVec S_ 1 :=
  let main_v0 : FVec F S131072x64 .f32 := Host.absf main_arg0
  let main_cst : FVec F S_ .f32 := constant S_ .f32 0x7F800000#32
  let main_v1 : FVec F S131072x64 .f32 := broadcastInDim S131072x64 ![] bcast_S_S131072x64 main_cst
  let main_v2 : IVec S131072x64 1 := cmpf .olt main_v0 main_v1
  let main_c : IVec S_ 1 := constantI S_ 1 1#1
  let main_v3 : IVec S_ 1 := (fun x v => Host.reduce IntOp.andi x v reducesTo_S131072x64_S_d0_1 h_S_) main_v2 main_c
  let main_v4 : FVec F S513x1 .f32 := Host.absf main_arg1
  let main_cst_0 : FVec F S_ .f32 := constant S_ .f32 0x7F800000#32
  let main_v5 : FVec F S513x1 .f32 := broadcastInDim S513x1 ![] bcast_S_S513x1 main_cst_0
  let main_v6 : IVec S513x1 1 := cmpf .olt main_v4 main_v5
  let main_c_1 : IVec S_ 1 := constantI S_ 1 1#1
  let main_v7 : IVec S_ 1 := (fun x v => Host.reduce IntOp.andi x v reducesTo_S513x1_S_d0_1 h_S_) main_v6 main_c_1
  let main_v8 : IVec S_ 1 := andi main_v3 main_v7
  let main_v9 : FVec F S512x64 .f32 := Host.absf main_arg2
  let main_cst_2 : FVec F S_ .f32 := constant S_ .f32 0x7F800000#32
  let main_v10 : FVec F S512x64 .f32 := broadcastInDim S512x64 ![] bcast_S_S512x64 main_cst_2
  let main_v11 : IVec S512x64 1 := cmpf .olt main_v9 main_v10
  let main_c_3 : IVec S_ 1 := constantI S_ 1 1#1
  let main_v12 : IVec S_ 1 := (fun x v => Host.reduce IntOp.andi x v reducesTo_S512x64_S_d0_1 h_S_) main_v11 main_c_3
  let main_v13 : IVec S_ 1 := andi main_v8 main_v12
  let main_v14 : FVec F S512x1 .f32 := Host.absf main_arg3
  let main_cst_4 : FVec F S_ .f32 := constant S_ .f32 0x7F800000#32
  let main_v15 : FVec F S512x1 .f32 := broadcastInDim S512x1 ![] bcast_S_S512x1 main_cst_4
  let main_v16 : IVec S512x1 1 := cmpf .olt main_v14 main_v15
  fn_part1 (F := F) main_arg3 main_v13 main_v16
-- ==== Kernel.lean ====
abbrev S131072x64 : Shape := ⟨2, ![131072, 64]⟩
abbrev S513x1 : Shape := ⟨2, ![513, 1]⟩
abbrev S512x64 : Shape := ⟨2, ![512, 64]⟩
abbrev S512x1 : Shape := ⟨2, ![512, 1]⟩
abbrev S131072x1 : Shape := ⟨2, ![131072, 1]⟩
abbrev S2048x64 : Shape := ⟨2, ![2048, 64]⟩
abbrev S2048x1 : Shape := ⟨2, ![2048, 1]⟩
abbrev S1x512 : Shape := ⟨2, ![1, 512]⟩
abbrev S512 : Shape := ⟨1, ![512]⟩
abbrev S64x512 : Shape := ⟨2, ![64, 512]⟩
abbrev S2048x512 : Shape := ⟨2, ![2048, 512]⟩
abbrev S2048 : Shape := ⟨1, ![2048]⟩
abbrev S1x1 : Shape := ⟨2, ![1, 1]⟩

abbrev nBuf : Space → Nat
  | .hbm => 5
  | .vmem => 7
  | .smem => 0
  | _ => 0

abbrev bufTy : (tb : Table) → Fin (tcTables nBuf tb) → BufTy
  | .hbm, ⟨0, _⟩ => ⟨S131072x64, .f32⟩
  | .hbm, ⟨1, _⟩ => ⟨S513x1, .f32⟩
  | .hbm, ⟨2, _⟩ => ⟨S512x64, .f32⟩
  | .hbm, ⟨3, _⟩ => ⟨S512x1, .f32⟩
  | .hbm, ⟨4, _⟩ => ⟨S131072x1, .f32⟩
  | .local _ .vmem, ⟨0, _⟩ => ⟨S2048x64, .f32⟩
  | .local _ .vmem, ⟨1, _⟩ => ⟨S2048x64, .f32⟩
  | .local _ .vmem, ⟨2, _⟩ => ⟨S512x64, .f32⟩
  | .local _ .vmem, ⟨3, _⟩ => ⟨S512x1, .f32⟩
  | .local _ .vmem, ⟨4, _⟩ => ⟨S513x1, .f32⟩
  | .local _ .vmem, ⟨5, _⟩ => ⟨S2048x1, .f32⟩
  | .local _ .vmem, ⟨6, _⟩ => ⟨S2048x1, .f32⟩
  | _, _ => ⟨S131072x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S512x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S513x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S2048x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

class Facts₀ : Prop where
  inb_S2048x64_S2048x64_0_0 : ∀ a, (![0, 0] : Fin 2 → Nat) a + S2048x64.size a ≤ S2048x64.size a
  h_S2048x64 : 0 < S2048x64.numel
  inb_S512x64_S512x64_0_0 : ∀ a, (![0, 0] : Fin 2 → Nat) a + S512x64.size a ≤ S512x64.size a
  h_S512x64 : 0 < S512x64.numel
  inb_S512x1_S512x1_0_0 : ∀ a, (![0, 0] : Fin 2 → Nat) a + S512x1.size a ≤ S512x1.size a
  h_S512x1 : 0 < S512x1.numel
  inb_S513x1_S513x1_0_0 : ∀ a, (![0, 0] : Fin 2 → Nat) a + S513x1.size a ≤ S513x1.size a
  h_S513x1 : 0 < S513x1.numel
  transposes_S512x1_p1_0_S1x512 : S512x1.Transposes [1, 0] S1x512
  reduces_S512x64_S512 : S512x64.Reduces [1] S512
  shapeCasts_S512_S512x1 : S512.ShapeCasts S512x1
  broadcasts_S512x1_S512x64 : S512x1.Broadcasts S512x64
  bitsLt_bf16_f32 : FTy.bits .bf16 < FTy.bits .f32
  transposes_S512x64_p1_0_S64x512 : S512x64.Transposes [1, 0] S64x512
  reduces_S2048x64_S2048 : S2048x64.Reduces [1] S2048
  shapeCasts_S2048_S2048x1 : S2048.ShapeCasts S2048x1
  broadcasts_S2048x1_S2048x512 : S2048x1.Broadcasts S2048x512
  broadcasts_S1x512_S2048x512 : S1x512.Broadcasts S2048x512
  slices_S513x1_o0_0_S512x1 : S513x1.Slices ![0, 0] S512x1
  slices_S513x1_o512_0_S1x1 : S513x1.Slices ![512, 0] S1x1
  broadcasts_S1x1_S2048x1 : S1x1.Broadcasts S2048x1
  inb_S2048x1_S2048x1_0_0 : ∀ a, (![0, 0] : Fin 2 → Nat) a + S2048x1.size a ≤ S2048x1.size a
  h_S2048x1 : 0 < S2048x1.numel
  dot_S2048x64_S64x512_S2048x512_1_0_0_1_n_n_wf : DotDims.WF S2048x64 S64x512 S2048x512 [1] [0] [0] [1] [] []
  dot_S2048x512_S512x1_S2048x1_1_0_0_1_n_n_wf : DotDims.WF S2048x512 S512x1 S2048x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x64.size a ≤ S131072x64.size a
  hwx0_0 : ∀ i : grid0.Coords, EltTy.bits .f32 = 32 ∨ (Rect.block (s := S131072x64) S2048x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x64.size a ≤ S512x64.size a
  hwx0_1 : ∀ i : grid0.Coords, EltTy.bits .f32 = 32 ∨ (Rect.block (s := S512x64) S512x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x1.size a ≤ S512x1.size a
  hwx0_2 : ∀ i : grid0.Coords, EltTy.bits .f32 = 32 ∨ (Rect.block (s := S512x1) S512x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S513x1.size a ≤ S513x1.size a
  hwx0_3 : ∀ i : grid0.Coords, EltTy.bits .f32 = 32 ∨ (Rect.block (s := S513x1) S513x1.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x1.size a ≤ S131072x1.size a
  hwx0_4 : ∀ i : grid0.Coords, EltTy.bits .f32 = 32 ∨ (Rect.block (s := S131072x1) S2048x1.size (cc0_transform_4 i) (hinb0_4 i)).WholeWords (EltTy.packing .f32)

variable [Facts₀]

def dot_S2048x64_S64x512_S2048x512_1_0_0_1_n_n : DotDims S2048x64 S64x512 S2048x512 where
  lhsContracting := [1]
  rhsContracting := [0]
  lhsNonContracting := [0]
  rhsNonContracting := [1]
  lhsBatch := []
  rhsBatch := []
  wf := dot_S2048x64_S64x512_S2048x512_1_0_0_1_n_n_wf
def dot_S2048x512_S512x1_S2048x1_1_0_0_1_n_n : DotDims S2048x512 S512x1 S2048x1 where
  lhsContracting := [1]
  rhsContracting := [0]
  lhsNonContracting := [0]
  rhsNonContracting := [1]
  lhsBatch := []
  rhsBatch := []
  wf := dot_S2048x512_S512x1_S2048x1_1_0_0_1_n_n_wf

abbrev win0_0 : Pipeline.Window sig grid0 :=
  Pipeline.Window.ofSpec (Memref.whole main_arg0) S2048x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S512x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S513x1.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S2048x1.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

class Facts : Prop extends Facts₀ where

variable [Facts]
-- ==== ReferenceIdeal.lean ====
abbrev S131072x64 : Shape := ⟨2, ![131072, 64]⟩
abbrev S513x1 : Shape := ⟨2, ![513, 1]⟩
abbrev S512x64 : Shape := ⟨2, ![512, 64]⟩
abbrev S512x1 : Shape := ⟨2, ![512, 1]⟩
abbrev S_ : Shape := ⟨0, ![]⟩
abbrev S131072 : Shape := ⟨1, ![131072]⟩
abbrev S131072x1 : Shape := ⟨2, ![131072, 1]⟩
abbrev S512 : Shape := ⟨1, ![512]⟩
abbrev S1x512 : Shape := ⟨2, ![1, 512]⟩
abbrev S131072x512 : Shape := ⟨2, ![131072, 512]⟩
abbrev S64x512 : Shape := ⟨2, ![64, 512]⟩
abbrev S1x1 : Shape := ⟨2, ![1, 1]⟩

abbrev nBuf : Space → Nat
  | .hbm => 36
  | .vmem => 0
  | .smem => 0
  | _ => 0

abbrev bufTy : (tb : Table) → Fin (tcTables nBuf tb) → BufTy
  | .hbm, ⟨0, _⟩ => ⟨S131072x64, .f32⟩
  | .hbm, ⟨1, _⟩ => ⟨S513x1, .f32⟩
  | .hbm, ⟨2, _⟩ => ⟨S512x64, .f32⟩
  | .hbm, ⟨3, _⟩ => ⟨S512x1, .f32⟩
  | .hbm, ⟨4, _⟩ => ⟨S131072x64, .f32⟩
  | .hbm, ⟨5, _⟩ => ⟨S_, .f32⟩
  | .hbm, ⟨6, _⟩ => ⟨S131072, .f32⟩
  | .hbm, ⟨7, _⟩ => ⟨S131072x1, .f32⟩
  | .hbm, ⟨8, _⟩ => ⟨S512x64, .f32⟩
  | .hbm, ⟨9, _⟩ => ⟨S_, .f32⟩
  | .hbm, ⟨10, _⟩ => ⟨S512, .f32⟩
  | .hbm, ⟨11, _⟩ => ⟨S1x512, .f32⟩
  | .hbm, ⟨12, _⟩ => ⟨S131072x512, .f32⟩
  | .hbm, ⟨13, _⟩ => ⟨S131072x512, .f32⟩
  | .hbm, ⟨14, _⟩ => ⟨S131072x512, .f32⟩
  | .hbm, ⟨15, _⟩ => ⟨S64x512, .f32⟩
  | .hbm, ⟨16, _⟩ => ⟨S131072x512, .f32⟩
  | .hbm, ⟨17, _⟩ => ⟨S_, .f32⟩
  | .hbm, ⟨18, _⟩ => ⟨S131072x512, .f32⟩
  | .hbm, ⟨19, _⟩ => ⟨S131072x512, .f32⟩
  | .hbm, ⟨20, _⟩ => ⟨S131072x512, .f32⟩
  | .hbm, ⟨21, _⟩ => ⟨S131072x512, .f32⟩
  | .hbm, ⟨22, _⟩ => ⟨S512, .f32⟩
  | .hbm, ⟨23, _⟩ => ⟨S512, .f32⟩
  | .hbm, ⟨24, _⟩ => ⟨S1x512, .f32⟩
  | .hbm, ⟨25, _⟩ => ⟨S_, .f32⟩
  | .hbm, ⟨26, _⟩ => ⟨S1x512, .f32⟩
  | .hbm, ⟨27, _⟩ => ⟨S1x512, .f32⟩
  | .hbm, ⟨28, _⟩ => ⟨S131072x512, .f32⟩
  | .hbm, ⟨29, _⟩ => ⟨S131072x512, .f32⟩
  | .hbm, ⟨30, _⟩ => ⟨S131072x512, .f32⟩
  | .hbm, ⟨31, _⟩ => ⟨S512x1, .f32⟩
  | .hbm, ⟨32, _⟩ => ⟨S131072x1, .f32⟩
  | .hbm, ⟨33, _⟩ => ⟨S1x1, .f32⟩
  | .hbm, ⟨34, _⟩ => ⟨S131072x1, .f32⟩
  | .hbm, ⟨35, _⟩ => ⟨S131072x1, .f32⟩
  | _, _ => ⟨S131072x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]

class Facts₀ : Prop where
  reducesTo_S131072x64_S131072_d1 : S131072x64.ReducesTo [1] S131072
  h_S_ : 0 < S_.numel
  bcast_S131072_S131072x1_0 : S131072.BroadcastsInDim S131072x1 (![0] : Fin 1 → Fin S131072x1.rank)
  reducesTo_S512x64_S512_d1 : S512x64.ReducesTo [1] S512
  bcast_S512_S1x512_1 : S512.BroadcastsInDim S1x512 (![1] : Fin 1 → Fin S1x512.rank)
  bcast_S131072x1_S131072x512_0_1 : S131072x1.BroadcastsInDim S131072x512 (![0, 1] : Fin 2 → Fin S131072x512.rank)
  bcast_S1x512_S131072x512_0_1 : S1x512.BroadcastsInDim S131072x512 (![0, 1] : Fin 2 → Fin S131072x512.rank)
  transposes_S512x64_S64x512_1_0 : S512x64.Transposes [1, 0] S64x512
  bcast_S_S131072x512 : S_.BroadcastsInDim S131072x512 (![] : Fin 0 → Fin S131072x512.rank)
  shapeCasts_S512x1_S512 : S512x1.ShapeCasts S512
  bcast_S_S1x512 : S_.BroadcastsInDim S1x512 (![] : Fin 0 → Fin S1x512.rank)
  slices_S513x1_S512x1_0_0 : S513x1.Slices ![0, 0] S512x1
  slices_S513x1_S1x1_512_0 : S513x1.Slices ![512, 0] S1x1
  bcast_S1x1_S131072x1_0_1 : S1x1.BroadcastsInDim S131072x1 (![0, 1] : Fin 2 → Fin S131072x1.rank)
  dot_S131072x64_S64x512_S131072x512_1_0_0_1_n_n_wf : DotDims.WF S131072x64 S64x512 S131072x512 [1] [0] [0] [1] [] []
  dot_S131072x512_S512x1_S131072x1_1_0_0_1_n_n_wf : DotDims.WF S131072x512 S512x1 S131072x1 [1] [0] [0] [1] [] []

variable [Facts₀]

def dot_S131072x64_S64x512_S131072x512_1_0_0_1_n_n : DotDims S131072x64 S64x512 S131072x512 where
  lhsContracting := [1]
  rhsContracting := [0]
  lhsNonContracting := [0]
  rhsNonContracting := [1]
  lhsBatch := []
  rhsBatch := []
  wf := dot_S131072x64_S64x512_S131072x512_1_0_0_1_n_n_wf
def dot_S131072x512_S512x1_S131072x1_1_0_0_1_n_n : DotDims S131072x512 S512x1 S131072x1 where
  lhsContracting := [1]
  rhsContracting := [0]
  lhsNonContracting := [0]
  rhsNonContracting := [1]
  lhsBatch := []
  rhsBatch := []
  wf := dot_S131072x512_S512x1_S131072x1_1_0_0_1_n_n_wf

class Facts : Prop extends Facts₀ where

variable [Facts]
-- ==== Proof.RbfLaw.lean ====
/-
  A Gaussian radial-basis layer, one input row at a time, on the extended reals.

  For a row x, a centre c (both of length 64) and a width s, the layer's exponent is -|x - c|² / (2 s²) with the squared
  distance expanded, |x|² + |c|² - 2 x·c.  Two arrangements of it are stated here.  The DIVIDED form computes the expanded
  squared distance, negates it and divides by 2 s².  The SCALED form first forms the factor k = -1 / (2 s²), folds -2 k
  into the centre before the inner product, and adds |x|² k and |c|² k: it is k (|x|² + |c|² - 2 x·c) with the product
  distributed over the three terms.

  The two agree when x, c and s are real numbers and s ≠ 0, because then k is a real number and distributivity holds.  They
  do NOT agree for every finite input: at s = 0 the factor k is -1/0 = -∞, and for x = c = 0 every product with it is
  0 · ∞ = 0, so the scaled form is 0 while the divided form is 0/0, which the extended reals here read as -∞.  That is why
  the width is asked to be nonzero.

  The layer's output for the row is Σ_h exp(exponent of centre h) · w_h + w_512, the last weight being the bias.
-/
import Idealize.ShloMosaic.PureOps.Ideal
import Idealize.ShloMosaic.PureOps.Ideal.Laws
import Idealize.ShloMosaic.Lib.ValueIdx

noncomputable section

namespace Cert.Rbf

open Idealize.ShloMosaic Idealize.ShloMosaic.ValueIdx
open scoped BigOperators

/-! ## The three float words the programs spell -/

/-- The word of `2.0` denotes the real 2. -/
theorem two_val : Ideal.ofBits .f32 0x40000000#32 = ((2 : ℝ) : EReal) := by
  simp [Ideal.ofBits, Ideal.ieee, -EReal.coe_mul]; norm_num

/-- The word of `-1.0` denotes the real -1. -/
theorem negOne_val : Ideal.ofBits .f32 0xBF800000#32 = ((-1 : ℝ) : EReal) := by
  simp [Ideal.ofBits, Ideal.ieee, -EReal.coe_mul]; norm_num

/-- The word of `-2.0` denotes the real -2. -/
theorem negTwo_val : Ideal.ofBits .f32 0xC0000000#32 = ((-2 : ℝ) : EReal) := by
  simp [Ideal.ofBits, Ideal.ieee, -EReal.coe_mul]; norm_num

/-! ## The exponent, two ways -/

/-- The factor -1 / (2 s²). -/
def scale (s : EReal) : EReal :=
  Ideal.div (Ideal.ofBits .f32 0xBF800000#32) (Ideal.ofBits .f32 0x40000000#32 * (s * s))

/-- The scaled form: Σ x (c (-2 k)) + |x|² k + |c|² k with k = `scale s`. -/
def expScaled (x c : Fin 64 → EReal) (s : EReal) : EReal :=
  ((∑ f : Fin 64, x f * (c f * (Ideal.ofBits .f32 0xC0000000#32 * scale s))) + (∑ f : Fin 64, x f * x f) * scale s)
    + (∑ f : Fin 64, c f * c f) * scale s

/-- The divided form: -((|x|² + |c|²) - 2 x·c) / (2 s²). -/
def expDivided (x c : Fin 64 → EReal) (s : EReal) : EReal :=
  Ideal.div (-(((∑ f : Fin 64, x f * x f) + (∑ f : Fin 64, c f * c f)) - Ideal.ofBits .f32 0x40000000#32 * (∑ f : Fin 64, x f * c f)))
    (Ideal.ofBits .f32 0x40000000#32 * (s * s))

/-- A finite sum of real numbers, read in the extended reals, is the sum of the readings. -/
theorem coe_sum {ι : Type} (t : Finset ι) (g : ι → ℝ) : ((∑ i ∈ t, g i : ℝ) : EReal) = ∑ i ∈ t, (g i : EReal) := by
  classical
  induction t using Finset.induction_on with
  | empty => simp
  | insert a t ha ih => rw [Finset.sum_insert ha, Finset.sum_insert ha, EReal.coe_add, ih]

/-- THE LAW: on real rows and a real nonzero width the two forms are one number, k (|x|² + |c|² - 2 x·c). -/
theorem expScaled_eq_expDivided (x c : Fin 64 → EReal) (s : EReal) (hx : ∀ f, ∃ r : ℝ, x f = (r : EReal))
    (hc : ∀ f, ∃ r : ℝ, c f = (r : EReal)) (hs : ∃ r : ℝ, s = (r : EReal)) (hs0 : s ≠ 0) :
    expScaled x c s = expDivided x c s := by
  choose xr hxr using hx
  choose cr hcr using hc
  obtain ⟨sr, rfl⟩ := hs
  have hsr : sr ≠ 0 := fun h => hs0 (by rw [h]; rfl)
  have hd : (2 * (sr * sr) : ℝ) ≠ 0 := mul_ne_zero two_ne_zero (mul_ne_zero hsr hsr)
  obtain rfl : x = fun f => ((xr f : ℝ) : EReal) := funext hxr
  obtain rfl : c = fun f => ((cr f : ℝ) : EReal) := funext hcr
  unfold expScaled expDivided scale
  rw [two_val, negOne_val, negTwo_val]
  simp only [← EReal.coe_mul]
  rw [Ideal.div_coe hd, Ideal.div_coe hd]
  simp only [← EReal.coe_mul, ← coe_sum, ← EReal.coe_add, ← EReal.coe_sub, ← EReal.coe_neg]
  refine congrArg _ ?_
  have e : (∑ f : Fin 64, xr f * (cr f * (-2 * (-1 * (1 / (2 * (sr * sr)))))))
      = (∑ f : Fin 64, xr f * cr f) * (-2 * (-1 * (1 / (2 * (sr * sr))))) := by
    rw [Finset.sum_mul]; exact Finset.sum_congr rfl fun f _ => by ring
  rw [e]
  ring

/-! ## One row of the layer -/

/-- Row `h` of the 513 weights, for a centre `h` below 512. -/
abbrev wRow (h : Fin 512) : Fin 513 := ⟨h.val, Nat.lt_succ_of_lt h.isLt⟩
/-- The bias's row, the last of the 513. -/
abbrev biasRow : Fin 513 := ⟨512, by decide⟩

/-- The layer's output for one row, with the exponent in the scaled form. -/
def rowScaled (x : Fin 64 → EReal) (C : (⟨2, ![512, 64]⟩ : Shape).Idx → EReal) (Sg : (⟨2, ![512, 1]⟩ : Shape).Idx → EReal)
    (W : (⟨2, ![513, 1]⟩ : Shape).Idx → EReal) : EReal :=
  (∑ h : Fin 512, Ideal.exp (expScaled x (fun f => C (ix2 h f)) (Sg (ix2 h (0 : Fin 1)))) * W (ix2 (wRow h) (0 : Fin 1)))
    + W (ix2 biasRow (0 : Fin 1))

/-- The layer's output for one row, with the exponent in the divided form. -/
def rowDivided (x : Fin 64 → EReal) (C : (⟨2, ![512, 64]⟩ : Shape).Idx → EReal) (Sg : (⟨2, ![512, 1]⟩ : Shape).Idx → EReal)
    (W : (⟨2, ![513, 1]⟩ : Shape).Idx → EReal) : EReal :=
  (∑ h : Fin 512, Ideal.exp (expDivided x (fun f => C (ix2 h f)) (Sg (ix2 h (0 : Fin 1)))) * W (ix2 (wRow h) (0 : Fin 1)))
    + W (ix2 biasRow (0 : Fin 1))

/-- On a real row, real centres and real nonzero widths the two row outputs are equal: centre by centre the exponents are
    (`expScaled_eq_expDivided`); the weights need nothing. -/
theorem rowScaled_eq_rowDivided (x : Fin 64 → EReal) (C : (⟨2, ![512, 64]⟩ : Shape).Idx → EReal)
    (Sg : (⟨2, ![512, 1]⟩ : Shape).Idx → EReal) (W : (⟨2, ![513, 1]⟩ : Shape).Idx → EReal)
    (hx : ∀ f, ∃ r : ℝ, x f = (r : EReal)) (hC : ∀ i, ∃ r : ℝ, C i = (r : EReal))
    (hS : ∀ i, ∃ r : ℝ, Sg i = (r : EReal)) (hS0 : ∀ i, Sg i ≠ 0) :
    rowScaled x C Sg W = rowDivided x C Sg W := by
  unfold rowScaled rowDivided
  refine congrArg (· + _) (Finset.sum_congr rfl fun h _ => ?_)
  rw [expScaled_eq_expDivided x _ _ hx (fun f => hC _) (hS _) (hS0 _)]

/-- Equal rows, centres, widths and weights give equal row outputs. -/
theorem rowScaled_congr {x x' : Fin 64 → EReal} {C C' : (⟨2, ![512, 64]⟩ : Shape).Idx → EReal}
    {Sg Sg' : (⟨2, ![512, 1]⟩ : Shape).Idx → EReal} {W W' : (⟨2, ![513, 1]⟩ : Shape).Idx → EReal}
    (hx : x = x') (hC : C = C') (hS : Sg = Sg') (hW : W = W') : rowScaled x C Sg W = rowScaled x' C' Sg' W' := by
  subst hx hC hS hW; rfl

/-! ## The whole layer: 131072 rows -/

/-- The layer's output array, row by row, with the exponent in the scaled form. The arguments are in the programs' order:
    inputs, weights, centres, widths. -/
def layerScaled (X : (⟨2, ![131072, 64]⟩ : Shape).Idx → EReal) (W : (⟨2, ![513, 1]⟩ : Shape).Idx → EReal)
    (C : (⟨2, ![512, 64]⟩ : Shape).Idx → EReal) (Sg : (⟨2, ![512, 1]⟩ : Shape).Idx → EReal) :
    (⟨2, ![131072, 1]⟩ : Shape).Idx → EReal :=
  fun i => rowScaled (fun f => X (ix2 (i 0) f)) C Sg W

/-- The layer's output array, row by row, with the exponent in the divided form. -/
def layerDivided (X : (⟨2, ![131072, 64]⟩ : Shape).Idx → EReal) (W : (⟨2, ![513, 1]⟩ : Shape).Idx → EReal)
    (C : (⟨2, ![512, 64]⟩ : Shape).Idx → EReal) (Sg : (⟨2, ![512, 1]⟩ : Shape).Idx → EReal) :
    (⟨2, ![131072, 1]⟩ : Shape).Idx → EReal :=
  fun i => rowDivided (fun f => X (ix2 (i 0) f)) C Sg W

/-- On real inputs, real centres and real nonzero widths the two arrays are equal, row by row. -/
theorem layerScaled_eq_layerDivided (X : (⟨2, ![131072, 64]⟩ : Shape).Idx → EReal) (W : (⟨2, ![513, 1]⟩ : Shape).Idx → EReal)
    (C : (⟨2, ![512, 64]⟩ : Shape).Idx → EReal) (Sg : (⟨2, ![512, 1]⟩ : Shape).Idx → EReal)
    (hX : ∀ i, ∃ r : ℝ, X i = (r : EReal)) (hC : ∀ i, ∃ r : ℝ, C i = (r : EReal))
    (hS : ∀ i, ∃ r : ℝ, Sg i = (r : EReal)) (hS0 : ∀ i, Sg i ≠ 0) :
    layerScaled X W C Sg = layerDivided X W C Sg :=
  funext fun i => rowScaled_eq_rowDivided _ C Sg W (fun f => hX _) hC hS hS0

end Cert.Rbf

end
-- ==== Proof.LibColumnLayout.lean ====
/-
  Two layout operations on a column, read at an index: the forms a row sum kept as a column goes through before it meets a
  full matrix. (The library has the row forms `[a] → [1, a]` and `[1, b] → [a, b]`; these are their column counterparts.)
  Library imports only.
-/
import Idealize.ShloMosaic.Lib.ValueIdx
import Idealize.ShloMosaic.Lib.ValueLayout
import Idealize.ShloMosaic.Lib.Pipeline.Value

namespace Cert.LibColumnLayout

open Idealize.ShloMosaic Idealize.ShloMosaic.ValueIdx

/-- An `[a]` array cast to `[a, 1]` reads, at `(i, u)`, the operand at `i`, whatever the unit coordinate `u`: both indices
    have row-major position `i`. -/
theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`, whatever `c`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumnLayout
-- ==== Proof.LibDot.lean ====
/-
  A plain matrix product read at an entry.  For dimension numbers that contract the left operand's axis 1 with the right
  operand's axis 0 and have no batch axis, both the matrix unit's product into a zero accumulator and the host's
  dot_general are, at the ideal reading, the textbook sum Σ_i lhs (p, i) · rhs (i, q): the contraction index is its one
  coordinate, and the operand indices at (p, q) and i are (p, i) and (i, q).
-/
import Idealize.ShloMosaic.PureOps.Ideal.Laws
import Idealize.ShloMosaic.Lib.ValueIdx

noncomputable section

namespace Cert.LibDot

open Idealize.ShloMosaic Idealize.ShloMosaic.ValueIdx
open scoped BigOperators

variable {a k b : ℕ} (D : DotDims ⟨2, ![a, k]⟩ ⟨2, ![k, b]⟩ ⟨2, ![a, b]⟩) (hr : D.contr.rank = 1)
  (hs : D.contr.size ⟨0, by omega⟩ = k)
  (hl0 : ∀ j q, (D.lhsIdx j q 0).val = (j 0).val) (hl1 : ∀ j q, (D.lhsIdx j q 1).val = (q ⟨0, by omega⟩).val)
  (hr0 : ∀ j q, (D.rhsIdx j q 0).val = (q ⟨0, by omega⟩).val) (hr1 : ∀ j q, (D.rhsIdx j q 1).val = (j 1).val)

include hr hs hl0 hl1 hr0 hr1

/-- The sum over the contraction index is the sum over its one coordinate, the operands read at (p, i) and (i, q). -/
theorem sum_plain (lhs : (⟨2, ![a, k]⟩ : Shape).Idx → EReal) (rhs : (⟨2, ![k, b]⟩ : Shape).Idx → EReal) (p : Fin a) (q : Fin b) :
    (∑ c : D.contr.Idx, lhs (D.lhsIdx (ix2 p q) c) * rhs (D.rhsIdx (ix2 p q) c)) = ∑ i : Fin k, lhs (ix2 p i) * rhs (ix2 i q) := by
  rw [← Equiv.sum_comp (contrEquiv1 D k hr hs).symm]
  refine Finset.sum_congr rfl fun i _ => ?_
  have hk := contrEquiv1_symm_val D k hr hs i
  have el : D.lhsIdx (ix2 p q) ((contrEquiv1 D k hr hs).symm i) = ix2 p i := funext fun ax => Fin.ext (by
    match ax with
    | ⟨0, _⟩ => exact hl0 _ _
    | ⟨1, _⟩ => exact (hl1 _ _).trans hk)
  have er : D.rhsIdx (ix2 p q) ((contrEquiv1 D k hr hs).symm i) = ix2 i q := funext fun ax => Fin.ext (by
    match ax with
    | ⟨0, _⟩ => exact (hr0 _ _).trans hk
    | ⟨1, _⟩ => exact hr1 _ _)
  rw [el, er]

/-- The matrix unit's product into a zero accumulator, at entry (p, q). -/
theorem matmul_zero_apply {φ₁ φ₂ : FTy} (prec : Option ContractPrecision) (lhs : FVec Ideal ⟨2, ![a, k]⟩ φ₁)
    (rhs : FVec Ideal ⟨2, ![k, b]⟩ φ₂) (p : Fin a) (q : Fin b) :
    FloatOps.matmul D prec lhs rhs (constant ⟨2, ![a, b]⟩ .f32 0x00000000#32) (ix2 p q) = ∑ i : Fin k, lhs (ix2 p i) * rhs (ix2 i q) :=
  (Ideal.matmul_constant_zero_apply D prec lhs rhs (ix2 p q)).trans (sum_plain D hr hs hl0 hl1 hr0 hr1 lhs rhs p q)

/-- The host's dot_general, at entry (p, q). -/
theorem dotGeneral_apply {φ₁ φ₂ : FTy} (prec : Option ContractPrecision) (sched : HostSchedule) (lhs : FVec Ideal ⟨2, ![a, k]⟩ φ₁)
    (rhs : FVec Ideal ⟨2, ![k, b]⟩ φ₂) (p : Fin a) (q : Fin b) :
    FloatOps.dotGeneral D prec sched lhs rhs (ix2 p q) = ∑ i : Fin k, lhs (ix2 p i) * rhs (ix2 i q) :=
  (Ideal.dotGeneral_apply D prec sched lhs rhs (ix2 p q)).trans (sum_plain D hr hs hl0 hl1 hr0 hr1 lhs rhs p q)

end Cert.LibDot

end
-- ==== Proof.KernelRow.lean ====
/-
  The kernel's body, read one output row at a time.

  The body loads a block of 2048 input rows together with all 512 centres, their widths and the 513 weights, and stores
  one value per row.  At row r that value is Σ_h exp(exponent of centre h) · w_h + w_512 with the exponent in the SCALED
  form: the factor k_h = -1 / (2 s_h²) is computed once per centre as a column; the first matrix product contracts the
  row with the centres multiplied by -2 k_h (the transposed, column-broadcast factor); the row's sum of squares, kept as
  a column, is broadcast along the centres and multiplied by the k's laid out as a row; the centres' sums of squares times
  k are laid out as a row and broadcast down the rows.  Changes of float format are the identity on extended reals, both
  matrix products start from a zero accumulator, and the slices of the weights pick rows 0..511 and row 512.  So the stored
  value at row r is `Rbf.rowScaled` of that row of the block.
-/
import proofs.«134091_j58875411694167_2_alg».proof.Proof.Gen.KernelIdeal.Skeleton
import proofs.«134091_j58875411694167_2_alg».proof.Proof.RbfLaw
import proofs.«134091_j58875411694167_2_alg».proof.Proof.LibColumnLayout
import proofs.«134091_j58875411694167_2_alg».proof.Proof.LibDot
import Idealize.ShloMosaic.Lib.ValueIdx
import Idealize.ShloMosaic.Lib.ValueLayout
import Idealize.ShloMosaic.Lib.Pipeline.Value
import Idealize.ShloMosaic.PureOps.Ideal.Laws

noncomputable section

namespace Cert.Rbf.Kernel

open Cert.KernelIdeal Cert.KernelIdeal.Gen Idealize.ShloMosaic Idealize.ShloMosaic.ValueIdx Cert.Rbf
open scoped BigOperators

/-! ## The two matrix products' index facts -/

/-- The product of a block's rows with the scaled, transposed centres. -/
abbrev dotXC := dot_S2048x64_S64x512_S2048x512_1_0_0_1_n_n
/-- The product of the exponentials with the weights' first 512 rows. -/
abbrev dotPW := dot_S2048x512_S512x1_S2048x1_1_0_0_1_n_n

theorem dotXC_l0 (j : S2048x512.Idx) (q : dotXC.contr.Idx) : (dotXC.lhsIdx j q 0).val = (j 0).val := by
  unfold DotDims.lhsIdx
  rw [dif_neg (show ¬(0 : Fin S2048x64.rank) ∈ dotXC.lhsBatch by decide), dif_pos (show (0 : Fin S2048x64.rank) ∈ dotXC.lhsNonContracting by decide)]
  rfl
theorem dotXC_l1 (j : S2048x512.Idx) (q : dotXC.contr.Idx) : (dotXC.lhsIdx j q 1).val = (q ⟨0, by decide⟩).val :=
  dotXC.lhsIdx_val_of_single rfl j q
theorem dotXC_r0 (j : S2048x512.Idx) (q : dotXC.contr.Idx) : (dotXC.rhsIdx j q 0).val = (q ⟨0, by decide⟩).val :=
  dotXC.rhsIdx_val_of_single rfl j q
theorem dotXC_r1 (j : S2048x512.Idx) (q : dotXC.contr.Idx) : (dotXC.rhsIdx j q 1).val = (j 1).val := by
  unfold DotDims.rhsIdx
  rw [dif_neg (show ¬(1 : Fin S64x512.rank) ∈ dotXC.rhsBatch by decide), dif_pos (show (1 : Fin S64x512.rank) ∈ dotXC.rhsNonContracting by decide)]
  rfl

theorem dotPW_l0 (j : S2048x1.Idx) (q : dotPW.contr.Idx) : (dotPW.lhsIdx j q 0).val = (j 0).val := by
  unfold DotDims.lhsIdx
  rw [dif_neg (show ¬(0 : Fin S2048x512.rank) ∈ dotPW.lhsBatch by decide), dif_pos (show (0 : Fin S2048x512.rank) ∈ dotPW.lhsNonContracting by decide)]
  rfl
theorem dotPW_l1 (j : S2048x1.Idx) (q : dotPW.contr.Idx) : (dotPW.lhsIdx j q 1).val = (q ⟨0, by decide⟩).val :=
  dotPW.lhsIdx_val_of_single rfl j q
theorem dotPW_r0 (j : S2048x1.Idx) (q : dotPW.contr.Idx) : (dotPW.rhsIdx j q 0).val = (q ⟨0, by decide⟩).val :=
  dotPW.rhsIdx_val_of_single rfl j q
theorem dotPW_r1 (j : S2048x1.Idx) (q : dotPW.contr.Idx) : (dotPW.rhsIdx j q 1).val = (j 1).val := by
  unfold DotDims.rhsIdx
  rw [dif_neg (show ¬(1 : Fin S512x1.rank) ∈ dotPW.rhsBatch by decide), dif_pos (show (1 : Fin S512x1.rank) ∈ dotPW.rhsNonContracting by decide)]
  rfl

/-! ## A row's sum of squares kept as a column -/

/-- The lane sum of the squares of a matrix with 64 columns, started at zero and cast to a column, reads at row `p` the
    sum over the 64 features of that row's squares. -/
theorem sumsq_col_apply {a : ℕ} (y : FVec Ideal ⟨2, ![a, 64]⟩ .f32) (hred : (⟨2, ![a, 64]⟩ : Shape).Reduces [1] ⟨1, ![a]⟩)
    (hφ : FKind.Formats FTy.f32) (hacc : (0x00000000#32 : BitVec 32) = FKind.add.neutral FTy.f32 hφ)
    (hc : (⟨1, ![a]⟩ : Shape).ShapeCasts ⟨2, ![a, 1]⟩) (p : Fin a) (u : Fin 1) :
    shapeCast ⟨2, ![a, 1]⟩ (multiReduction .add [1] ⟨1, ![a]⟩ (mulf y y) 0x00000000#32 hred hφ hacc) hc (ix2 p u)
      = ∑ f : Fin 64, y (ix2 p f) * y (ix2 p f) := by
  refine (LibColumnLayout.shapeCast_a_a1_apply _ hc p u).trans ?_
  refine (Ideal.multiReduction_add_single (mulf y y) 0x00000000#32 hred hφ hacc (ix1 p)).trans ?_
  refine Finset.sum_congr rfl fun f _ => ?_
  have e : hred.lift (ix1 p) f = ix2 p f := funext fun ax => Fin.ext (by match ax with | ⟨0, _⟩ => rfl | ⟨1, _⟩ => rfl)
  show (mulf y y) (hred.lift (ix1 p) f) = _
  rw [e]
  rfl

/-! ## The stored value at a row -/

/-- The body's stored vector at row `r` is the row's output with the exponent in the scaled form, over the loaded block
    `x0`, centres `x1`, widths `x2` and weights `x3`. -/
theorem pay_apply (x0 : Vec Ideal S2048x64 .f32) (x1 : Vec Ideal S512x64 .f32) (x2 : Vec Ideal S512x1 .f32) (x3 : Vec Ideal S513x1 .f32)
    (r : Fin 2048) (u : Fin 1) :
    k0_pay1 (F := Ideal) x0 x1 x2 x3 (ix2 r u) = rowScaled (fun f => x0 (ix2 r f)) x1 x2 x3 := by
  obtain rfl : u = 0 := Subsingleton.elim _ _
  unfold k0_pay1 rowScaled
  refine congrArg₂ (fun a b : EReal => a + b) ?_ ?_
  · -- the second product: Σ_h exp(..)(r, h) · w(h, 0)
    refine (LibDot.matmul_zero_apply dotPW rfl rfl dotPW_l0 dotPW_l1 dotPW_r0 dotPW_r1 none _ _ r (0 : Fin 1)).trans ?_
    refine Finset.sum_congr rfl fun h _ => congrArg₂ (fun a b : EReal => a * b) (congrArg Ideal.exp ?_) ?_
    · -- the exponent at (r, h)
      unfold expScaled
      refine congrArg₂ (fun a b : EReal => a + b) (congrArg₂ (fun a b : EReal => a + b) ?_ ?_) ?_
      · -- the first product: Σ_f x(r, f) · (c(h, f) · (-2 k_h))
        refine (LibDot.matmul_zero_apply dotXC rfl rfl dotXC_l0 dotXC_l1 dotXC_r0 dotXC_r1 none _ _ r h).trans ?_
        refine Finset.sum_congr rfl fun f _ => congrArg₂ (fun a b : EReal => a * b) rfl ?_
        refine (transpose_ix2_apply _ _ f h).trans ?_
        refine congrArg₂ (fun a b : EReal => a * b) rfl ?_
        refine (LibColumnLayout.broadcastTo_a1_ab_apply _ _ h f).trans ?_
        rfl
      · -- |x_r|² · k_h
        refine congrArg₂ (fun a b : EReal => a * b) ?_ ?_
        · refine (LibColumnLayout.broadcastTo_a1_ab_apply _ _ r h).trans ?_
          exact sumsq_col_apply x0 _ _ _ _ r (0 : Fin 1)
        · refine (broadcastTo_1b_ab_apply _ _ r h).trans ?_
          refine (transpose_ix2_apply _ _ (0 : Fin 1) h).trans ?_
          rfl
      · -- |c_h|² · k_h
        refine (broadcastTo_1b_ab_apply _ _ r h).trans ?_
        refine (transpose_ix2_apply _ _ (0 : Fin 1) h).trans ?_
        refine congrArg₂ (fun a b : EReal => a * b) ?_ rfl
        exact sumsq_col_apply x1 _ _ _ _ h (0 : Fin 1)
    · -- the weight of centre h
      show extractStridedSlice S512x1 ![0, 0] x3 slices_S513x1_o0_0_S512x1 (ix2 h (0 : Fin 1)) = _
      exact slice2_axis0_apply 0 x3 slices_S513x1_o0_0_S512x1 h (0 : Fin 1) (wRow h) (Nat.zero_add _).symm
  · -- the bias, broadcast down the rows
    refine (broadcastTo_1b_ab_apply _ _ r (0 : Fin 1)).trans ?_
    exact slice2_axis0_apply 512 x3 slices_S513x1_o512_0_S1x1 (0 : Fin 1) (0 : Fin 1) biasRow rfl

end Cert.Rbf.Kernel

end
-- ==== Proof.KernelArray.lean ====
/-
  From the kernel's blocks to its whole output array.

  The grid has 64 points.  At point t the body sees rows 2048 t .. 2048 t + 2047 of the inputs and the whole arrays of
  centres, widths and weights (their block index is always 0), and writes rows 2048 t .. 2048 t + 2047 of the output.  By
  the row reading of the body, what point t writes back is block t of ONE function of the argument arrays, the layer with
  the exponent in the scaled form: row r of the block is row 2048 t + r of the array, on the input side and on the output
  side alike.  The 64 output blocks cover all 131072 rows (row n lies in block n / 2048), so after the run the output
  array is that function.
-/
import proofs.«134091_j58875411694167_2_alg».proof.Proof.Gen.KernelIdeal.Value
import proofs.«134091_j58875411694167_2_alg».proof.Proof.KernelRow

noncomputable section

namespace Cert.Rbf.Kernel

open Cert.KernelIdeal Cert.KernelIdeal.Gen Idealize.ShloMosaic Idealize.ShloMosaic.TcCoe Idealize.SL.Sem Idealize.ShloMosaic.ValueIdx Cert.Rbf
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The printed index maps over the grid: the inputs' and the output's block row is the point, every other block index 0. -/
theorem index_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0 :=
  (by decide +kernel : ∀ t : Fin grid0.N, _)

/-- Every block row below 64 is some point's output block. -/
theorem index_onto : ∀ q : Fin 64, ∃ t : Fin cfg0.N, win0_4.index t = ![q.val, 0] :=
  (by decide +kernel : ∀ q : Fin 64, ∃ t : Fin grid0.N, win0_4.index t = ![q.val, 0])

/-- WHAT POINT `t` WRITES BACK is block `t` of the layer (scaled form) of the argument arrays. -/
theorem flushed_eq (c : Dev nD) (t : Fin cfg0.N) :
    (dats m 0 c).flushed 4 t = ((cfg0.win 4).blk t).view.read (Elt Ideal)
      (layerScaled (V m c main_arg0) (V m c main_arg1) (V m c main_arg2) (V m c main_arg3)) := by
  rw [Cert.KernelIdeal.Value.flushed4]
  unfold out0_4
  rw [View.canon_unit_zero zero_offsets]
  simp only [View.ld_unit_zero (S := S2048x64) zero_offsets, View.ld_unit_zero (S := S512x64) zero_offsets,
    View.ld_unit_zero (S := S512x1) zero_offsets, View.ld_unit_zero (S := S513x1) zero_offsets]
  obtain ⟨e00, e01, e10, e11, e20, e21, e30, e31, e40, e41⟩ := index_facts t
  funext j
  obtain ⟨r, u, rfl⟩ : ∃ (r : Fin 2048) (u : Fin 1), j = ix2 r u := ⟨j 0, j 1, eq_ix2 j⟩
  show k0_pay1 (F := Ideal) (iblk m c 0 t) (iblk m c 1 t) (iblk m c 2 t) (iblk m c 3 t) (ix2 r u)
    = layerScaled (V m c main_arg0) (V m c main_arg1) (V m c main_arg2) (V m c main_arg3) (((cfg0.win 4).blk t).view.emb (ix2 r u))
  refine (pay_apply _ _ _ _ r u).trans ?_
  unfold layerScaled
  refine rowScaled_congr (funext fun f => ?_) (funext fun y => ?_) (funext fun y => ?_) (funext fun y => ?_)
  · -- row r of the inputs' block is row 2048 t + r of the inputs, the row the output's block has there
    show V m c main_arg0 (((cfg0.win 0).blk t).view.emb (ix2 r f)) = V m c main_arg0 (ix2 ((((cfg0.win 4).blk t).view.emb (ix2 r u)) 0) f)
    refine congrArg _ (funext fun a => Fin.ext ?_)
    match a with
    | ⟨0, _⟩ => show win0_0.index t (0 : Fin 2) * 2048 + 1 * r.val = win0_4.index t (0 : Fin 2) * 2048 + 1 * r.val; omega
    | ⟨1, _⟩ => show win0_0.index t (1 : Fin 2) * 64 + 1 * f.val = f.val; omega
  · -- the centres' block is the whole array
    show V m c main_arg2 (((cfg0.win 1).blk t).view.emb y) = V m c main_arg2 y
    refine congrArg _ (funext fun a => Fin.ext ?_)
    match a with
    | ⟨0, _⟩ => show win0_1.index t (0 : Fin 2) * 512 + 1 * (y 0).val = (y 0).val; omega
    | ⟨1, _⟩ => show win0_1.index t (1 : Fin 2) * 64 + 1 * (y 1).val = (y 1).val; omega
  · -- the widths' block is the whole array
    show V m c main_arg3 (((cfg0.win 2).blk t).view.emb y) = V m c main_arg3 y
    refine congrArg _ (funext fun a => Fin.ext ?_)
    match a with
    | ⟨0, _⟩ => show win0_2.index t (0 : Fin 2) * 512 + 1 * (y 0).val = (y 0).val; omega
    | ⟨1, _⟩ => show win0_2.index t (1 : Fin 2) * 1 + 1 * (y 1).val = (y 1).val; omega
  · -- the weights' block is the whole array
    show V m c main_arg1 (((cfg0.win 3).blk t).view.emb y) = V m c main_arg1 y
    refine congrArg _ (funext fun a => Fin.ext ?_)
    match a with
    | ⟨0, _⟩ => show win0_3.index t (0 : Fin 2) * 513 + 1 * (y 0).val = (y 0).val; omega
    | ⟨1, _⟩ => show win0_3.index t (1 : Fin 2) * 1 + 1 * (y 1).val = (y 1).val; omega

/-- An index of the output array is in point `t`'s block iff each coordinate is in the block's range on its axis. -/
theorem mem_blk (t : Fin cfg0.N) (i : S131072x1.Idx) :
    i ∈ ((cfg0.win 4).blk t).view.set ↔ ∀ a : Fin 2, win0_4.index t a * S2048x1.size a ≤ (i a).val ∧ (i a).val < win0_4.index t a * S2048x1.size a + S2048x1.size a := by
  show i ∈ ((View.whole main_v0).slice (win0_4.rect t)).set ↔ _
  rw [View.set_slice_whole, Rect.mem_set_unit]
  exact Iff.rfl

/-- Every row of the output lies in some point's block: row n in block n / 2048. -/
theorem covered (i : S131072x1.Idx) : ∃ t : Fin cfg0.N, (cfg0.win 4).flush t = true ∧ i ∈ ((cfg0.win 4).blk t).view.set := by
  have hi0 : (i 0).val < 131072 := (i 0).isLt
  have hi1 : (i 1).val < 1 := (i 1).isLt
  obtain ⟨t, ht⟩ := index_onto ⟨(i 0).val / 2048, by omega⟩
  have q0 : win0_4.index t (0 : Fin 2) = (i 0).val / 2048 := congrFun ht 0
  have q1 : win0_4.index t (1 : Fin 2) = 0 := congrFun ht 1
  refine ⟨t, flush0_4 t, ?_⟩
  rw [mem_blk]
  intro a
  match a with
  | ⟨0, _⟩ => show win0_4.index t (0 : Fin 2) * 2048 ≤ (i 0).val ∧ (i 0).val < win0_4.index t (0 : Fin 2) * 2048 + 2048; omega
  | ⟨1, _⟩ => show win0_4.index t (1 : Fin 2) * 1 ≤ (i 1).val ∧ (i 1).val < win0_4.index t (1 : Fin 2) * 1 + 1; omega

/-- THE OUTPUT ARRAY after the run is the layer (scaled form) of the argument arrays as launched. -/
theorem final (c : Dev nD) : (dats m 0 c).arrAt 4 cfg0.N
    = layerScaled (m ((c : Thread nD τ).loc main_arg0)) (m ((c : Thread nD τ).loc main_arg1)) (m ((c : Thread nD τ).loc main_arg2)) (m ((c : Thread nD τ).loc main_arg3)) :=
  (dats m 0 c).arrAt_eq_of_cover 4 _ (fun t _ => flushed_eq m c t) covered

/-- The kernel's run: every weakly fair execution terminates with the output array at the layer (scaled form) of the
    arguments, the arguments unchanged. -/
theorem run : θ_run defs (onTc (τ := τ) (main (F := Ideal))) ⟨m, fun _ => 0, ρ⟩ fun r => ∀ c : Dev nD,
      r.2.mem ((c : Thread nD τ).loc main_v0)
        = layerScaled (m ((c : Thread nD τ).loc main_arg0)) (m ((c : Thread nD τ).loc main_arg1)) (m ((c : Thread nD τ).loc main_arg2)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final m c), (h c).2⟩) (Cert.KernelIdeal.Value.run_blocks m ρ)

end Cert.Rbf.Kernel

end
-- ==== Proof.RefRow.lean ====
/-
  The reference, read one output row at a time.

  Its result at row n is Σ_h exp(exponent of centre h) · w_h + w_512 with the exponent in the DIVIDED form,
  -((|x_n|² + |c_h|²) - 2 x_n·c_h) / (2 s_h²): the row sums of squares are host sums started at zero, the inner products a
  host matrix product against the transposed centres, the widths squared after a reshape to a vector, and every
  broadcast only repeats a row's or a centre's value across the other axis.  So chaining the reads of the operations one
  after another, and naming the row, the centre and the feature each composed index stands for, leaves exactly
  `Rbf.rowDivided` of row n.
-/
import proofs.«134091_j58875411694167_2_alg».proof.Proof.Gen.ReferenceIdeal.Read
import proofs.«134091_j58875411694167_2_alg».proof.Proof.RbfLaw

noncomputable section

namespace Cert.Rbf.Ref

open Cert.ReferenceIdeal Cert.ReferenceIdeal.Gen Cert.ReferenceIdeal.Read Idealize.ShloMosaic Idealize.ShloMosaic.ValueIdx Cert.Rbf
open scoped BigOperators

/-- The reference's last stage at row `n` is the row's output with the exponent in the divided form. -/
theorem result_apply (X : (⟨S131072x64, .f32⟩ : BufTy).Contents (Elt Ideal)) (W : (⟨S513x1, .f32⟩ : BufTy).Contents (Elt Ideal))
    (C : (⟨S512x64, .f32⟩ : BufTy).Contents (Elt Ideal)) (Sg : (⟨S512x1, .f32⟩ : BufTy).Contents (Elt Ideal)) (n : Fin 131072) (u : Fin 1) :
    val_main_v27 (F := Ideal) X W C Sg (ix2 n u) = rowDivided (fun f => X (ix2 n f)) C Sg W := by
  obtain rfl : u = 0 := Subsingleton.elim _ _
  -- the row of the inputs behind a squared entry, a centre's row behind a squared entry, the two operands of the inner
  -- product, a centre's width, a centre's weight, and the bias
  have e1 : ∀ (h : Fin 512) (k : Fin 64), idx_main_v1 (idx_main_v2 (idx_main_v6 (lidx_main_v24 (ix2 n (0 : Fin 1)) h))) k = ix2 n k :=
    fun h k => funext fun a => Fin.ext (by match a with | ⟨0, _⟩ => rfl | ⟨1, _⟩ => rfl)
  have e2 : ∀ (h : Fin 512) (k : Fin 64), idx_main_v4 (idx_main_v5 (idx_main_v7 (lidx_main_v24 (ix2 n (0 : Fin 1)) h))) k = ix2 h k :=
    fun h k => funext fun a => Fin.ext (by match a with | ⟨0, _⟩ => rfl | ⟨1, _⟩ => rfl)
  have e3 : ∀ (h : Fin 512) (k : Fin 64), lidx_main_v10 (lidx_main_v24 (ix2 n (0 : Fin 1)) h) k = ix2 n k :=
    fun h k => funext fun a => Fin.ext (by match a with | ⟨0, _⟩ => rfl | ⟨1, _⟩ => rfl)
  have e4 : ∀ (h : Fin 512) (k : Fin 64), idx_main_v9 (ridx_main_v10 (lidx_main_v24 (ix2 n (0 : Fin 1)) h) k) = ix2 h k :=
    fun h k => funext fun a => Fin.ext (by match a with | ⟨0, _⟩ => rfl | ⟨1, _⟩ => rfl)
  have e5 : ∀ h : Fin 512, idx_main_v15 (idx_main_v17 (idx_main_v20 (lidx_main_v24 (ix2 n (0 : Fin 1)) h))) = ix2 h (0 : Fin 1) :=
    fun h => funext fun a => Fin.ext (by
      match a with
      | ⟨0, _⟩ => exact Nat.div_one _
      | ⟨1, _⟩ => rfl)
  have e6 : ∀ h : Fin 512, idx_main_v23 (ridx_main_v24 (ix2 n (0 : Fin 1)) h) = ix2 (wRow h) (0 : Fin 1) :=
    fun h => funext fun a => Fin.ext (by match a with | ⟨0, _⟩ => rfl | ⟨1, _⟩ => rfl)
  have e7 : idx_main_v25 (idx_main_v26 (ix2 n (0 : Fin 1))) = ix2 biasRow (0 : Fin 1) :=
    funext fun a => Fin.ext (by match a with | ⟨0, _⟩ => rfl | ⟨1, _⟩ => rfl)
  simp only [val_main_v27_apply, val_main_v24_apply, val_main_v26_apply, val_main_v25_apply, val_main_v23_apply, val_main_v22_apply,
    val_main_v21_apply, val_main_v20_apply, val_main_v19_apply, val_main_v18_apply, val_main_v17_apply, val_main_v16_apply,
    val_main_v15_apply, val_main_v14_apply, val_main_v13_apply, val_main_v12_apply, val_main_v11_apply, val_main_v10_apply,
    val_main_v9_apply, val_main_v8_apply, val_main_v7_apply, val_main_v6_apply, val_main_v5_apply, val_main_v4_apply, val_main_v3_apply,
    val_main_v2_apply, val_main_v1_apply, val_main_v0_apply, val_main_cst_apply, val_main_cst_0_apply, val_main_cst_1_apply, val_main_cst_2_apply,
    e1, e2, e3, e4, e5, e6, e7,
    Ideal.addf_def, Ideal.mulf_def, Ideal.subf_def, Ideal.hostNegf_def, Ideal.negf_def, Ideal.hostDivf_def, Ideal.hostUnary_exp_def,
    Ideal.ofBits_def, Ideal.ofBits_zero_f32, zero_add]
  rfl

/-- So the reference's result array is the layer with the exponent in the divided form (an index's second coordinate
    ranges over one value). -/
theorem result_eq (X : (⟨S131072x64, .f32⟩ : BufTy).Contents (Elt Ideal)) (W : (⟨S513x1, .f32⟩ : BufTy).Contents (Elt Ideal))
    (C : (⟨S512x64, .f32⟩ : BufTy).Contents (Elt Ideal)) (Sg : (⟨S512x1, .f32⟩ : BufTy).Contents (Elt Ideal)) :
    val_main_v27 (F := Ideal) X W C Sg = layerDivided X W C Sg := by
  funext i
  obtain ⟨n, u, rfl⟩ : ∃ (n : Fin 131072) (u : Fin 1), i = ix2 n u := ⟨i 0, i 1, eq_ix2 i⟩
  exact result_apply X W C Sg n u

end Cert.Rbf.Ref

end
-- ==== Proof.PreDecode.lean ====
/-
  What the precondition says of the argument arrays, read on the extended reals.

  The precondition is a conjunction of five tests, each a conjunction over all entries of an array: |x| < +∞ for the
  inputs, the weights, the centres and the widths, and s ≠ 0 for the widths.  On the extended reals |x| = max x (-x) is
  below +∞ exactly when x is neither infinity, that is, when x is a real number.  So under the precondition every input,
  centre and width is a real number and every width is nonzero — what the law between the two forms of the exponent asks.
  (The weights' finiteness is not needed: they multiply equal factors on both sides.)
-/
import proofs.«134091_j58875411694167_2_alg».proof.Pre_finite_inputs
import proofs.«134091_j58875411694167_2_alg».proof.Proof.Gen.Pre_finite_inputs
import Idealize.ShloMosaic.Lib.ReduceAll
import Idealize.ShloMosaic.Lib.ValueIdx
import Idealize.ShloMosaic.PureOps.Ideal
import Idealize.ShloMosaic.PureOps.Ideal.Laws

noncomputable section

namespace Cert.Rbf.Pre

open Cert.Pre_finite_inputs Idealize.ShloMosaic

/-- The rank-0 shape has one index. -/
instance : Subsingleton S_.Idx := ⟨fun a b => funext fun d => d.elim0⟩

/-- The word of +∞ denotes the top of the extended reals. -/
theorem inf_val : Ideal.ofBits .f32 0x7F800000#32 = ⊤ := by
  simp [Ideal.ofBits, Ideal.ieee]

/-- An extended real whose absolute value is below +∞ is a real number. -/
theorem real_of_abs_lt (x : EReal) (h : Ideal.cmp .olt (max x (-x)) (Ideal.ofBits .f32 0x7F800000#32) = 1#1) :
    ∃ r : ℝ, x = (r : EReal) := by
  rw [inf_val] at h
  induction x using EReal.rec with
  | bot => simp [Ideal.cmp] at h
  | coe r => exact ⟨r, rfl⟩
  | top => simp [Ideal.cmp] at h

/-- An extended real that tests unequal to the zero word is not zero. -/
theorem ne_zero_of_une (x : EReal) (h : Ideal.cmp .une x (Ideal.ofBits .f32 0x00000000#32) = 1#1) : x ≠ 0 := by
  rw [Ideal.ofBits_zero_f32] at h
  intro hx
  rw [hx] at h
  simp [Ideal.cmp] at h

/-- Under the precondition the inputs, centres and widths are real numbers and the widths are nonzero. -/
theorem decode (X : FVec Ideal S131072x64 .f32) (W : FVec Ideal S513x1 .f32) (C : FVec Ideal S512x64 .f32) (Sg : FVec Ideal S512x1 .f32)
    (h : fn (F := Ideal) X W C Sg = fun _ => 1#1) :
    (∀ i, ∃ r : ℝ, X i = (r : EReal)) ∧ (∀ i, ∃ r : ℝ, C i = (r : EReal)) ∧ (∀ i, ∃ r : ℝ, Sg i = (r : EReal)) ∧ ∀ i, Sg i ≠ 0 := by
  have h0 := congrFun h ValueIdx.ix0
  dsimp only [fn, fn_part1] at h0
  obtain ⟨h1, hne⟩ := IntOp.andi_eq_one.1 h0
  obtain ⟨h2, hS⟩ := IntOp.andi_eq_one.1 h1
  obtain ⟨h3, hC⟩ := IntOp.andi_eq_one.1 h2
  obtain ⟨hX, -⟩ := IntOp.andi_eq_one.1 h3
  refine ⟨fun i => ?_, fun i => ?_, fun i => ?_, fun i => ?_⟩
  · exact real_of_abs_lt _ (Host.reduce_andi_all _ _ _ _ _ hX i)
  · exact real_of_abs_lt _ (Host.reduce_andi_all _ _ _ _ _ hC i)
  · exact real_of_abs_lt _ (Host.reduce_andi_all _ _ _ _ _ hS i)
  · exact ne_zero_of_une _ (Host.reduce_andi_all _ _ _ _ _ hne i)

end Cert.Rbf.Pre

end
-- ==== Proof.lean ====
/-
  A Gaussian radial-basis layer: for each of 131072 input rows x_n (64 features), 512 centres c_h with widths s_h and 513
  weights w, the output is y_n = Σ_h exp(-|x_n - c_h|² / (2 s_h²)) · w_h + w_512, the squared distance expanded as
  |x_n|² + |c_h|² - 2 x_n·c_h.

  The reference computes the expanded squared distance, negates it and divides by 2 s_h².  The kernel, on blocks of 2048
  rows, first forms k_h = -1 / (2 s_h²), folds -2 k_h into the centres before its matrix product, and adds |x_n|² k_h and
  |c_h|² k_h: the same exponent with k_h distributed over the three terms.  On the extended reals distributivity needs
  real numbers, so the inputs, centres and widths are used as finite; and it needs k_h itself to be a real number, that
  is, s_h ≠ 0 — at s_h = 0 the reference divides by zero, and the two arrangements read that corner differently
  (Proof/RbfLaw.lean has the example).  The precondition therefore asks every width to be nonzero as well as every input
  to be finite.

  The pieces: Proof/RbfLaw.lean, the two forms of the exponent and the law joining them; Proof/KernelRow.lean, the body's
  stored value at a row; Proof/KernelArray.lean, from the 64 blocks to the whole output array; Proof/RefRow.lean, the
  reference's result at a row; Proof/PreDecode.lean, what the precondition says of the arrays.  The three frames are the
  generated ones (the reference's is its generated run with the result dropped); no operation was rewritten by the
  idealization, so there is nothing to preserve.
-/
import proofs.«134091_j58875411694167_2_alg».proof.Defs
import proofs.«134091_j58875411694167_2_alg».proof.Proof.Gen.Kernel
import proofs.«134091_j58875411694167_2_alg».proof.Proof.Gen.Kernel.Skeleton
import proofs.«134091_j58875411694167_2_alg».proof.Proof.Gen.Kernel.Launch
import proofs.«134091_j58875411694167_2_alg».proof.Proof.Gen.Kernel.Points
import proofs.«134091_j58875411694167_2_alg».proof.Proof.Gen.Kernel.Frame
import proofs.«134091_j58875411694167_2_alg».proof.Proof.Gen.KernelIdeal
import proofs.«134091_j58875411694167_2_alg».proof.Proof.Gen.KernelIdeal.Skeleton
import proofs.«134091_j58875411694167_2_alg».proof.Proof.Gen.KernelIdeal.Launch
import proofs.«134091_j58875411694167_2_alg».proof.Proof.Gen.KernelIdeal.Points
import proofs.«134091_j58875411694167_2_alg».proof.Proof.Gen.KernelIdeal.Frame
import proofs.«134091_j58875411694167_2_alg».proof.Proof.Gen.ReferenceIdeal
import proofs.«134091_j58875411694167_2_alg».proof.Proof.Gen.Pre_finite_inputs
import proofs.«134091_j58875411694167_2_alg».proof.Proof.Gen.KernelIdeal.Value
import proofs.«134091_j58875411694167_2_alg».proof.Proof.Gen.ReferenceIdeal.Run
import proofs.«134091_j58875411694167_2_alg».proof.Proof.Gen.ReferenceIdeal.Read
import proofs.«134091_j58875411694167_2_alg».proof.Proof.RbfLaw
import proofs.«134091_j58875411694167_2_alg».proof.Proof.KernelArray
import proofs.«134091_j58875411694167_2_alg».proof.Proof.RefRow
import proofs.«134091_j58875411694167_2_alg».proof.Proof.PreDecode
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- The reference's frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both programs end with the layer's output: the kernel with the exponent in the scaled form, the reference in the
    divided form, and under the precondition (real inputs, centres and widths; nonzero widths) the two are one array. -/
theorem algebraic : Cert.algebraic_KernelIdeal_ReferenceIdeal := by
  intro m ρ m' ρ' hpre hagree
  refine ⟨_, Cert.Rbf.Kernel.run m ρ, ?_⟩
  refine (θ_run Cert.ReferenceIdeal.defs _ _).mono (fun _ h c => ⟨(h c).1.trans ?_, (h c).2⟩)
    (Cert.ReferenceIdeal.Value.run (F := Ideal) m' ρ')
  obtain ⟨hX, hC, hS, hS0⟩ := Cert.Rbf.Pre.decode _ _ _ _ (hpre c)
  rw [Cert.ReferenceIdeal.Read.val_main_v27_eq, (hagree c).1, (hagree c).2.1, (hagree c).2.2.1, (hagree c).2.2.2]
  exact (Cert.Rbf.Ref.result_eq _ _ _ _).trans (Cert.Rbf.layerScaled_eq_layerDivided _ _ _ _ hX hC hS hS0).symm

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
